-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x6400000 : Shape := ⟨2, ![2, 6400000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : IVec S2x6400000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  main_v3
-- ==== Kernel.lean ====
abbrev S100000x3 : Shape := ⟨2, ![100000, 3]⟩
abbrev S2x6400000 : Shape := ⟨2, ![2, 6400000]⟩
abbrev S16 : Shape := ⟨1, ![16]⟩
abbrev S1x16 : Shape := ⟨2, ![1, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S6400000x16 : Shape := ⟨2, ![6400000, 16]⟩
abbrev S12800x1 : Shape := ⟨2, ![12800, 1]⟩
abbrev S12800x16 : Shape := ⟨2, ![12800, 16]⟩
abbrev S100000x16 : Shape := ⟨2, ![100000, 16]⟩

abbrev nBuf : Space → Nat
  | .hbm => 40
  | .vmem => 5
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S16, .f32⟩
  | .hbm, ⟨3, _⟩ => ⟨S1x16, .f32⟩
  | .hbm, ⟨4, _⟩ => ⟨S1x6400000, .i32⟩
  | .hbm, ⟨5, _⟩ => ⟨S6400000, .i32⟩
  | .hbm, ⟨6, _⟩ => ⟨S_, .i32⟩
  | .hbm, ⟨7, _⟩ => ⟨S6400000, .i32⟩
  | .hbm, ⟨8, _⟩ => ⟨S6400000, .i1⟩
  | .hbm, ⟨9, _⟩ => ⟨S_, .i32⟩
  | .hbm, ⟨10, _⟩ => ⟨S6400000, .i32⟩
  | .hbm, ⟨11, _⟩ => ⟨S6400000, .i32⟩
  | .hbm, ⟨12, _⟩ => ⟨S6400000, .i32⟩
  | .hbm, ⟨13, _⟩ => ⟨S6400000x1, .i32⟩
  | .hbm, ⟨14, _⟩ => ⟨S6400000x3, .f32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x3, .f32⟩
  | .hbm, ⟨26, _⟩ => ⟨S6400000x3, .f32⟩
  | .hbm, ⟨27, _⟩ => ⟨S6400000x3, .f32⟩
  | .hbm, ⟨28, _⟩ => ⟨S_, .f32⟩
  | .hbm, ⟨29, _⟩ => ⟨S6400000, .f32⟩
  | .hbm, ⟨30, _⟩ => ⟨S6400000, .f32⟩
  | .hbm, ⟨31, _⟩ => ⟨S6400000x1, .f32⟩
  | .hbm, ⟨32, _⟩ => ⟨S6400000x16, .bf16⟩
  | .hbm, ⟨33, _⟩ => ⟨S6400000x16, .f32⟩
  | .hbm, ⟨34, _⟩ => ⟨S1x6400000, .i32⟩
  | .hbm, ⟨35, _⟩ => ⟨S6400000, .i32⟩
  | .hbm, ⟨36, _⟩ => ⟨S_, .f32⟩
  | .hbm, ⟨37, _⟩ => ⟨S100000x16, .f32⟩
  | .hbm, ⟨38, _⟩ => ⟨S6400000x1, .i32⟩
  | .hbm, ⟨39, _⟩ => ⟨S100000x16, .f32⟩
  | .local _ .vmem, ⟨0, _⟩ => ⟨S12800x1, .f32⟩
  | .local _ .vmem, ⟨1, _⟩ => ⟨S12800x1, .f32⟩
  | .local _ .vmem, ⟨2, _⟩ => ⟨S1x16, .f32⟩
  | .local _ .vmem, ⟨3, _⟩ => ⟨S12800x16, .bf16⟩
  | .local _ .vmem, ⟨4, _⟩ => ⟨S12800x16, .bf16⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12800x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16_S1x16_1 : S16.BroadcastsInDim S1x16 (![1] : Fin 1 → Fin S1x16.rank)
  slices_S2x6400000_S1x6400000_0_0 : S2x6400000.Slices ![0, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S2x6400000_S1x6400000_1_0 : S2x6400000.Slices ![1, 0] S1x6400000
  reducesTo_S6400000x3_S6400000_d1 : S6400000x3.ReducesTo [1] S6400000
  h_S_ : 0 < S_.numel
  shapeCasts_S6400000_S6400000x1 : S6400000.ShapeCasts S6400000x1
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S12800x16 : S1x16.Broadcasts S12800x16
  broadcasts_S12800x1_S12800x16 : S12800x1.Broadcasts S12800x16
  bitsLt_bf16_f32 : FTy.bits .bf16 < FTy.bits .f32
  inb_S12800x16_S12800x16_0_0 : ∀ a, (![0, 0] : Fin 2 → Nat) a + S12800x16.size a ≤ S12800x16.size a
  h_S12800x16 : 0 < S12800x16.numel
  packedbf16_S12800x16_S12800x16_0_0 : (Rect.unit (s := S12800x16) ![0, 0] S12800x16.size inb_S12800x16_S12800x16_0_0).PackedRows (EltTy.packing .bf16)
  bcast_S_S100000x16 : S_.BroadcastsInDim S100000x16 (![] : Fin 0 → Fin S100000x16.rank)
  gather_S100000x3_S6400000x1_S6400000x3_1_0_n_n_0_1_13_wf : GatherDims.WF S100000x3 S6400000x1 S6400000x3 [1] [0] [] [0] [] 1 ![1, 3]
  scatter_S100000x16_S6400000x1_S6400000x16_1_0_0_1_wf : ScatterDims.WF S100000x16 S6400000x1 S6400000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x1.size a ≤ S6400000x1.size a
  hwx0_0 : ∀ i : grid0.Coords, EltTy.bits .f32 = 32 ∨ (Rect.block (s := S6400000x1) S12800x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x16.size a ≤ S6400000x16.size a
  hwx0_2 : ∀ i : grid0.Coords, EltTy.bits .bf16 = 32 ∨ (Rect.block (s := S6400000x16) S12800x16.size (cc0_transform_2 i) (hinb0_2 i)).WholeWords (EltTy.packing .bf16)

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf

abbrev win0_0 : Pipeline.Window sig grid0 :=
  Pipeline.Window.ofSpec (Memref.whole main_v23) S12800x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S12800x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x6400000 : Shape := ⟨2, ![2, 6400000]⟩
abbrev S16 : Shape := ⟨1, ![16]⟩
abbrev S1x16 : Shape := ⟨2, ![1, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S6400000x16 : Shape := ⟨2, ![6400000, 16]⟩
abbrev S100000x16 : Shape := ⟨2, ![100000, 16]⟩

abbrev nBuf : Space → Nat
  | .hbm => 46
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S16, .f32⟩
  | .hbm, ⟨3, _⟩ => ⟨S1x16, .f32⟩
  | .hbm, ⟨4, _⟩ => ⟨S1x6400000, .i32⟩
  | .hbm, ⟨5, _⟩ => ⟨S6400000, .i32⟩
  | .hbm, ⟨6, _⟩ => ⟨S_, .i32⟩
  | .hbm, ⟨7, _⟩ => ⟨S6400000, .i32⟩
  | .hbm, ⟨8, _⟩ => ⟨S6400000, .i1⟩
  | .hbm, ⟨9, _⟩ => ⟨S_, .i32⟩
  | .hbm, ⟨10, _⟩ => ⟨S6400000, .i32⟩
  | .hbm, ⟨11, _⟩ => ⟨S6400000, .i32⟩
  | .hbm, ⟨12, _⟩ => ⟨S6400000, .i32⟩
  | .hbm, ⟨13, _⟩ => ⟨S6400000x1, .i32⟩
  | .hbm, ⟨14, _⟩ => ⟨S6400000x3, .f32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x3, .f32⟩
  | .hbm, ⟨26, _⟩ => ⟨S6400000x3, .f32⟩
  | .hbm, ⟨27, _⟩ => ⟨S6400000x3, .f32⟩
  | .hbm, ⟨28, _⟩ => ⟨S_, .f32⟩
  | .hbm, ⟨29, _⟩ => ⟨S6400000, .f32⟩
  | .hbm, ⟨30, _⟩ => ⟨S6400000, .f32⟩
  | .hbm, ⟨31, _⟩ => ⟨S6400000x1, .f32⟩
  | .hbm, ⟨32, _⟩ => ⟨S6400000x16, .f32⟩
  | .hbm, ⟨33, _⟩ => ⟨S6400000x16, .f32⟩
  | .hbm, ⟨34, _⟩ => ⟨S6400000x16, .f32⟩
  | .hbm, ⟨35, _⟩ => ⟨S6400000x16, .f32⟩
  | .hbm, ⟨36, _⟩ => ⟨S_, .f32⟩
  | .hbm, ⟨37, _⟩ => ⟨S6400000x16, .f32⟩
  | .hbm, ⟨38, _⟩ => ⟨S6400000x16, .f32⟩
  | .hbm, ⟨39, _⟩ => ⟨S6400000x16, .f32⟩
  | .hbm, ⟨40, _⟩ => ⟨S1x6400000, .i32⟩
  | .hbm, ⟨41, _⟩ => ⟨S6400000, .i32⟩
  | .hbm, ⟨42, _⟩ => ⟨S_, .f32⟩
  | .hbm, ⟨43, _⟩ => ⟨S100000x16, .f32⟩
  | .hbm, ⟨44, _⟩ => ⟨S6400000x1, .i32⟩
  | .hbm, ⟨45, _⟩ => ⟨S100000x16, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  slices_S2x6400000_S1x6400000_0_0 : S2x6400000.Slices ![0, 0] S1x6400000
  shapeCasts_S1x6400000_S6400000 : S1x6400000.ShapeCasts S6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S2x6400000_S1x6400000_1_0 : S2x6400000.Slices ![1, 0] S1x6400000
  reducesTo_S6400000x3_S6400000_d1 : S6400000x3.ReducesTo [1] S6400000
  h_S_ : 0 < S_.numel
  bcast_S1x16_S6400000x16_0_1 : S1x16.BroadcastsInDim S6400000x16 (![0, 1] : Fin 2 → Fin S6400000x16.rank)
  bcast_S6400000x1_S6400000x16_0_1 : S6400000x1.BroadcastsInDim S6400000x16 (![0, 1] : Fin 2 → Fin S6400000x16.rank)
  bcast_S_S6400000x16 : S_.BroadcastsInDim S6400000x16 (![] : Fin 0 → Fin S6400000x16.rank)
  bcast_S_S100000x16 : S_.BroadcastsInDim S100000x16 (![] : Fin 0 → Fin S100000x16.rank)
  gather_S100000x3_S6400000x1_S6400000x3_1_0_n_n_0_1_13_wf : GatherDims.WF S100000x3 S6400000x1 S6400000x3 [1] [0] [] [0] [] 1 ![1, 3]
  scatter_S100000x16_S6400000x1_S6400000x16_1_0_0_1_wf : ScatterDims.WF S100000x16 S6400000x1 S6400000x16 [1] [0] [0] 1

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf

class Facts : Prop extends Facts₀ where

variable [Facts]
-- ==== Proof.LibColumnRead.lean ====
/-
  A column of numbers and its copies, read at an entry (generic extents; library only).

  A vector of length `n` becomes an `n × 1` column in two ways — a reshape, which keeps the row-major
  position, and a `broadcast_in_dim` along axis 0, which copies coordinate 0 — and both read, at row `p` of the
  one column, the vector's entry `p`. A column is then copied along the lanes to an `n × b` matrix, by a vector
  broadcast (in a kernel body) or by a `broadcast_in_dim` on axes `[0, 1]` (on the host): entry `(p, q)` of the
  result is the column's entry `(p, 0)`, whatever `q` — the operand's second axis has size one, so its coordinate
  there is `0`.
-/
import Idealize.ShloMosaic.Lib.ValueIdx
import Idealize.ShloMosaic.Lib.Pipeline.Value

namespace Idealize.ShloMosaic.ValueIdx

variable {α : Type}

/-- A vector `[n]` reshaped to a column `[n, 1]` reads, at row `p`, the vector's entry `p`: both sit at row-major
    position `p`. -/
theorem shapeCast_n_n1_apply {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) := by
  refine shapeCast_apply x h (ix2 p (0 : Fin 1)) (ix1 p) ?_
  rw [Shape.rowMajor_val_two, Shape.rowMajor_val_one]
  show p.val = p.val * 1 + 0
  omega

/-- A vector `[n]` placed along axis 0 of a column `[n, 1]` reads, at row `p`, the vector's entry `p`. -/
theorem broadcastInDim_n_n1_apply {n : ℕ} (h : (⟨1, ![n]⟩ : Shape).BroadcastsInDim ⟨2, ![n, 1]⟩ ![0])
    (x : (⟨1, ![n]⟩ : Shape).Idx → α) (p : Fin n) :
    broadcastInDim ⟨2, ![n, 1]⟩ ![0] h x (ix2 p (0 : Fin 1)) = x (ix1 p) := by
  refine broadcastInDim_apply ![0] h x (ix2 p (0 : Fin 1)) (ix1 p) fun a => ?_
  match a with
  | ⟨0, _⟩ =>
    show p.val = if n = 1 then 0 else p.val
    split
    · have := p.isLt; omega
    · rfl

/-- A column `[a, 1]` copied along the lanes to `[a, b]` by a vector broadcast reads, at `(p, q)`, the column's
    entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A column `[a, 1]` copied along the lanes to `[a, b]` by a `broadcast_in_dim` on axes `[0, 1]` reads, at
    `(p, q)`, the column's entry `(p, 0)`. -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
/-
  Radial basis descriptors of a set of atoms: the specification, and the one law that joins the two programs.

  For atoms at positions `R : [100000, 3]` and edges with endpoints `idx : [2, 6400000]` (row 0 the first endpoint
  of every edge, row 1 the second), the length of edge `e` is `len e = sqrt (Σ_k (R[idx 0 e, k] − R[idx 1 e, k])²)`,
  its expansion on sixteen Gaussians centred at `s_b` is `exp (c · (s_b − len e)²)` with `c` the one word
  `0xC0E38E39`, and the descriptor of atom `v` is the sum of the expansions of the edges whose second endpoint is
  `v`. Both programs compute `len` with the same host operations and sum with the same scatter-add: those two
  chains are carried here as functions of their arguments (`edgeLen`, `atomSum`) that nothing below opens. Between
  them one program multiplies `(c · d) · d` and the other `c · (d · d)`, `d = s_b − len e`: on the extended reals
  multiplication is associative, at the infinities too, so the two agree for every input and no finiteness is used.
  The lengths reach one program as an `[E, 1]` column by a reshape and the other by a `broadcast_in_dim`; the
  centres reach both as a `[1, 16]` row.
-/
import Idealize.ShloMosaic.PureOps
import Idealize.ShloMosaic.PureOps.Ideal
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import proofs.«106090_j74706661146715_2_alg».proof.Proof.LibColumnRead

noncomputable section

namespace Cert.EdgeBasis

open Idealize.ShloMosaic Idealize.ShloMosaic.ValueIdx

/-! ## Shapes and the side conditions of the operations -/

abbrev SAtoms3 : Shape := ⟨2, ![100000, 3]⟩
abbrev SEnds : Shape := ⟨2, ![2, 6400000]⟩
abbrev SEndRow : Shape := ⟨2, ![1, 6400000]⟩
abbrev SEdges : Shape := ⟨1, ![6400000]⟩
abbrev SEdgeCol : Shape := ⟨2, ![6400000, 1]⟩
abbrev SEdges3 : Shape := ⟨2, ![6400000, 3]⟩
abbrev SCentres : Shape := ⟨1, ![16]⟩
abbrev SCentreRow : Shape := ⟨2, ![1, 16]⟩
abbrev SEdgesB : Shape := ⟨2, ![6400000, 16]⟩
abbrev SAtomsB : Shape := ⟨2, ![100000, 16]⟩
abbrev S0 : Shape := ⟨0, ![]⟩

theorem sliceRow0 : SEnds.Slices ![0, 0] SEndRow := by decide
theorem sliceRow1 : SEnds.Slices ![1, 0] SEndRow := by decide
theorem castRow : SEndRow.ShapeCasts SEdges := by decide
theorem castCol : SEdges.ShapeCasts SEdgeCol := by decide
theorem splatEdges : S0.BroadcastsInDim SEdges (![] : Fin 0 → Fin SEdges.rank) := by decide
theorem colEdges : SEdges.BroadcastsInDim SEdgeCol (![0] : Fin 1 → Fin SEdgeCol.rank) := by decide
theorem sumAxis : SEdges3.ReducesTo [1] SEdges := by decide
theorem one0 : 0 < S0.numel := by decide
theorem rowCentres : SCentres.BroadcastsInDim SCentreRow (![1] : Fin 1 → Fin SCentreRow.rank) := by decide
theorem rowsDown : SCentreRow.BroadcastsInDim SEdgesB (![0, 1] : Fin 2 → Fin SEdgesB.rank) := by decide
theorem colsAcross : SEdgeCol.BroadcastsInDim SEdgesB (![0, 1] : Fin 2 → Fin SEdgesB.rank) := by decide
theorem splatEdgesB : S0.BroadcastsInDim SEdgesB (![] : Fin 0 → Fin SEdgesB.rank) := by decide
theorem splatAtomsB : S0.BroadcastsInDim SAtomsB (![] : Fin 0 → Fin SAtomsB.rank) := by decide
theorem lookupWF : GatherDims.WF SAtoms3 SEdgeCol SEdges3 [1] [0] [] [0] [] 1 ![1, 3] := by decide
theorem sumWF : ScatterDims.WF SAtomsB SEdgeCol SEdgesB [1] [0] [0] 1 := by decide
theorem narrower : FTy.bf16.bits < FTy.f32.bits := by decide

/-- One row of `R` per index: the lookup's dimension numbers. -/
def lookupDims : GatherDims SAtoms3 SEdgeCol SEdges3 where
  offsetDims := [1]
  collapsedSliceDims := [0]
  operandBatchingDims := []
  startIndicesBatchingDims := []
  startIndexMap := [0]
  indexVectorDim := 1
  sliceSizes := ![1, 3]
  wf := lookupWF
/-- One row of sixteen added per index: the sum's dimension numbers. -/
def sumDims : ScatterDims SAtomsB SEdgeCol SEdgesB where
  updateWindowDims := [1]
  insertedWindowDims := [0]
  scatterDimsToOperandDims := [0]
  indexVectorDim := 1
  wf := sumWF

variable {F : FTy → Type} [FloatOps F]

/-- An array of shape `S` and element type `e`. -/
abbrev Arr (F : FTy → Type) [FloatOps F] (S : Shape) (e : EltTy) : Type := (⟨S, e⟩ : BufTy).Contents (Elt F)

/-! ## The two shared chains, as functions of their arguments -/

/-- The first endpoint of every edge: row 0 of the index table, flat. -/
def ends0 (idx : Arr F SEnds .i32) : Arr F SEdges .i32 :=
  shapeCast _ (extractStridedSlice SEndRow ![0, 0] idx sliceRow0) castRow
/-- The second endpoint of every edge: row 1 of the index table, flat. -/
def ends1 (idx : Arr F SEnds .i32) : Arr F SEdges .i32 :=
  shapeCast _ (extractStridedSlice SEndRow ![1, 0] idx sliceRow1) castRow

/-- An index below zero counts from the end of the 100000 atoms; any other index is kept. -/
def fromEnd (j : Arr F SEdges .i32) : Arr F SEdges .i32 :=
  select (cmpi .slt j (broadcastInDim SEdges ![] splatEdges (constantI S0 32 0#32)))
    (addi j (broadcastInDim SEdges ![] splatEdges (constantI S0 32 100000#32))) j

/-- The position of the atom each index names, one row per edge. -/
def positionsAt (R : Arr F SAtoms3 .f32) (j : Arr F SEdges .i32) : Arr F SEdges3 .f32 :=
  Host.gather lookupDims R (broadcastInDim SEdgeCol ![0] colEdges (fromEnd j))

/-- The displacement along every edge. -/
def displacement (R : Arr F SAtoms3 .f32) (idx : Arr F SEnds .i32) : Arr F SEdges3 .f32 :=
  subf (positionsAt R (ends0 idx)) (positionsAt R (ends1 idx))

/-- THE LENGTH of every edge: the square root of the sum of the squares of its displacement's three coordinates. -/
def edgeLen (R : Arr F SAtoms3 .f32) (idx : Arr F SEnds .i32) : Arr F SEdges .f32 :=
  Host.sqrt (Host.reduceAdd (mulf (displacement R idx) (displacement R idx)) (constant S0 .f32 0x00000000#32) sumAxis one0)

/-- THE SUM OVER EACH ATOM'S EDGES: the rows of `X` added, from zero, into the row of each edge's second endpoint. -/
def atomSum (idx : Arr F SEnds .i32) (X : Arr F SEdgesB .f32) : Arr F SAtomsB .f32 :=
  Host.scatterAdd sumDims (broadcastInDim SAtomsB ![] splatAtomsB (constant S0 .f32 0x00000000#32))
    (broadcastInDim SEdgeCol ![0] colEdges (ends1 idx)) X

/-- The sixteen centres, given by their words, as a one-row matrix. -/
def centreRow (w : Fin 16 → BitVec 32) : Arr F SCentreRow .f32 :=
  broadcastInDim SCentreRow ![1] rowCentres (fun i => FloatOps.ofBits .f32 (w (SCentres.rowMajor i)))

/-! ## The expansion, as each program spells it -/

/-- The difference between a centre and a length, for every edge and every centre (host operations). -/
def spread (len : Arr F SEdges .f32) (s : Arr F SCentreRow .f32) : Arr F SEdgesB .f32 :=
  subf (broadcastInDim SEdgesB ![0, 1] rowsDown s)
    (broadcastInDim SEdgesB ![0, 1] colsAcross (broadcastInDim SEdgeCol ![0] colEdges len))

/-- The expansion in host operations: `exp (c · (d · d))`, `d` the spread. -/
def hostBasis (len : Arr F SEdges .f32) (s : Arr F SCentreRow .f32) : Arr F SEdgesB .f32 :=
  Host.exp (mulf (broadcastInDim SEdgesB ![] splatEdgesB (constant S0 .f32 0xC0E38E39#32)) (mulf (spread len s) (spread len s)))

/-- One entry of the expansion as a kernel body computes it: `exp ((c · d) · d)`, `d = s − ℓ`. -/
def bodyEntry (s ℓ : EReal) : EReal :=
  Ideal.exp ((Ideal.ofBits .f32 0xC0E38E39#32 * (s - ℓ)) * (s - ℓ))

/-- The expansion over a column of lengths `col : [E, 1]` and a row of centres `s : [1, 16]`, entry by entry as
    a kernel body computes it; the result is kept in the narrower float format, which on the extended reals changes
    nothing. -/
def bodyBasis (col : FVec Ideal SEdgeCol .f32) (s : FVec Ideal SCentreRow .f32) : FVec Ideal SEdgesB .bf16 :=
  fun i => bodyEntry (s (ix2 (0 : Fin 1) (i 1))) (col (ix2 (i 0) (0 : Fin 1)))

/-! ## The law -/

/-- THE TWO EXPANSIONS AGREE, for every extended-real length and centre: the body's array over the reshaped
    lengths, widened back, is the host's. Entry `(e, b)` of either is `exp` of the product of `c` and two copies of
    `s_b − len e`, grouped `(c · d) · d` by one and `c · (d · d)` by the other. -/
theorem widened_bodyBasis (len : FVec Ideal SEdges .f32) (s : FVec Ideal SCentreRow .f32) :
    (extf .f32 (bodyBasis (shapeCast SEdgeCol len castCol) s) narrower : FVec Ideal SEdgesB .f32) = hostBasis (F := Ideal) len s := by
  funext i
  obtain ⟨e, b, rfl⟩ : ∃ (e : Fin 6400000) (b : Fin 16), i = ix2 e b := ⟨i 0, i 1, eq_ix2 i⟩
  rw [extf_apply]
  show bodyEntry (s (ix2 (0 : Fin 1) b)) (shapeCast SEdgeCol len castCol (ix2 e (0 : Fin 1))) = _
  rw [shapeCast_n_n1_apply]
  show _ = Ideal.exp ((broadcastInDim SEdgesB ![] splatEdgesB (constant (F := Ideal) S0 .f32 0xC0E38E39#32) (ix2 e b))
      * ((broadcastInDim SEdgesB ![0, 1] rowsDown s (ix2 e b)
            - broadcastInDim SEdgesB ![0, 1] colsAcross (broadcastInDim SEdgeCol ![0] colEdges len) (ix2 e b))
        * (broadcastInDim SEdgesB ![0, 1] rowsDown s (ix2 e b)
            - broadcastInDim SEdgesB ![0, 1] colsAcross (broadcastInDim SEdgeCol ![0] colEdges len) (ix2 e b))))
  rw [broadcastInDim_scalar_apply, constant_apply, broadcastInDim_oneRow_apply, broadcastInDim_a1_ab_apply,
    broadcastInDim_n_n1_apply]
  unfold bodyEntry
  rw [mul_assoc]

end Cert.EdgeBasis

end
-- ==== Proof.RefRun.lean ====
/-
  The reference program's run, read back.

  The reference is a straight line of 44 host operations and launches no kernel, so every weakly fair execution
  runs them in order and ends with each buffer at the operations' composed value of the two argument arrays. Composed,
  its result is the per-atom sum of the host's expansion of the edge lengths over the sixteen centres — the
  specification's functions of `R` and `idx`, which is how the run is stated here.
-/
import proofs.«106090_j74706661146715_2_alg».proof.Proof.Gen.ReferenceIdeal
import proofs.«106090_j74706661146715_2_alg».proof.Proof.Spec
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 44 operations, in order. -/
abbrev ops : List (HloOp τ sig (Elt F)) :=
  [ nullary main_cst (fun i => FloatOps.ofBits .f32 (lit0 (S16.rowMajor i))),
    unary main_cst main_v0 (broadcastInDim S1x16 ![1] bcast_S16_S1x16_1 : (⟨S16, .f32⟩ : BufTy).Contents (Elt F) → (⟨S1x16, .f32⟩ : BufTy).Contents (Elt F)),
    unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    nullary main_c (constantI S_ 32 0#32),
    unary main_c main_v3 (broadcastInDim S6400000 ![] bcast_S_S6400000 : (⟨S_, .i32⟩ : BufTy).Contents (Elt F) → (⟨S6400000, .i32⟩ : BufTy).Contents (Elt F)),
    binary main_v2 main_v3 main_v4 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v5 (broadcastInDim S6400000 ![] bcast_S_S6400000 : (⟨S_, .i32⟩ : BufTy).Contents (Elt F) → (⟨S6400000, .i32⟩ : BufTy).Contents (Elt F)),
    binary main_v2 main_v5 main_v6 (addi : (⟨S6400000, .i32⟩ : BufTy).Contents (Elt F) → (⟨S6400000, .i32⟩ : BufTy).Contents (Elt F) → (⟨S6400000, .i32⟩ : BufTy).Contents (Elt F)),
    ternary main_v4 main_v6 main_v2 main_v7 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v7 main_v8 (broadcastInDim S6400000x1 ![0] bcast_S6400000_S6400000x1_0 : (⟨S6400000, .i32⟩ : BufTy).Contents (Elt F) → (⟨S6400000x1, .i32⟩ : BufTy).Contents (Elt F)),
    binary main_arg0 main_v8 main_v9 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    unary main_arg1 main_v10 ((extractStridedSlice S1x6400000 ![1, 0] · slices_S2x6400000_S1x6400000_1_0) : (⟨S2x6400000, .i32⟩ : BufTy).Contents (Elt F) → (⟨S1x6400000, .i32⟩ : BufTy).Contents (Elt F)),
    reshape main_v10 main_v11 rfl shapeCasts_S1x6400000_S6400000,
    nullary main_c_1 (constantI S_ 32 0#32),
    unary main_c_1 main_v12 (broadcastInDim S6400000 ![] bcast_S_S6400000 : (⟨S_, .i32⟩ : BufTy).Contents (Elt F) → (⟨S6400000, .i32⟩ : BufTy).Contents (Elt F)),
    binary main_v11 main_v12 main_v13 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v14 (broadcastInDim S6400000 ![] bcast_S_S6400000 : (⟨S_, .i32⟩ : BufTy).Contents (Elt F) → (⟨S6400000, .i32⟩ : BufTy).Contents (Elt F)),
    binary main_v11 main_v14 main_v15 (addi : (⟨S6400000, .i32⟩ : BufTy).Contents (Elt F) → (⟨S6400000, .i32⟩ : BufTy).Contents (Elt F) → (⟨S6400000, .i32⟩ : BufTy).Contents (Elt F)),
    ternary main_v13 main_v15 main_v11 main_v16 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v16 main_v17 (broadcastInDim S6400000x1 ![0] bcast_S6400000_S6400000x1_0 : (⟨S6400000, .i32⟩ : BufTy).Contents (Elt F) → (⟨S6400000x1, .i32⟩ : BufTy).Contents (Elt F)),
    binary main_arg0 main_v17 main_v18 ((fun x i => Host.gather gather_S100000x3_S6400000x1_S6400000x3_1_0_n_n_0_1_13 x i) : (⟨S100000x3, .f32⟩ : BufTy).Contents (Elt F) → (⟨S6400000x1, .i32⟩ : BufTy).Contents (Elt F) → (⟨S6400000x3, .f32⟩ : BufTy).Contents (Elt F)),
    binary main_v9 main_v18 main_v19 (subf : (⟨S6400000x3, .f32⟩ : BufTy).Contents (Elt F) → (⟨S6400000x3, .f32⟩ : BufTy).Contents (Elt F) → (⟨S6400000x3, .f32⟩ : BufTy).Contents (Elt F)),
    binary main_v19 main_v19 main_v20 (mulf : (⟨S6400000x3, .f32⟩ : BufTy).Contents (Elt F) → (⟨S6400000x3, .f32⟩ : BufTy).Contents (Elt F) → (⟨S6400000x3, .f32⟩ : BufTy).Contents (Elt F)),
    nullary main_cst_3 (constant S_ .f32 0x00000000#32),
    binary main_v20 main_cst_3 main_v21 ((fun x v => Host.reduceAdd x v reducesTo_S6400000x3_S6400000_d1 h_S_) : (⟨S6400000x3, .f32⟩ : BufTy).Contents (Elt F) → (⟨S_, .f32⟩ : BufTy).Contents (Elt F) → (⟨S6400000, .f32⟩ : BufTy).Contents (Elt F)),
    unary main_v21 main_v22 (Host.sqrt : (⟨S6400000, .f32⟩ : BufTy).Contents (Elt F) → (⟨S6400000, .f32⟩ : BufTy).Contents (Elt F)),
    unary main_v22 main_v23 (broadcastInDim S6400000x1 ![0] bcast_S6400000_S6400000x1_0 : (⟨S6400000, .f32⟩ : BufTy).Contents (Elt F) → (⟨S6400000x1, .f32⟩ : BufTy).Contents (Elt F)),
    unary main_v0 main_v24 (broadcastInDim S6400000x16 ![0, 1] bcast_S1x16_S6400000x16_0_1 : (⟨S1x16, .f32⟩ : BufTy).Contents (Elt F) → (⟨S6400000x16, .f32⟩ : BufTy).Contents (Elt F)),
    unary main_v23 main_v25 (broadcastInDim S6400000x16 ![0, 1] bcast_S6400000x1_S6400000x16_0_1 : (⟨S6400000x1, .f32⟩ : BufTy).Contents (Elt F) → (⟨S6400000x16, .f32⟩ : BufTy).Contents (Elt F)),
    binary main_v24 main_v25 main_v26 (subf : (⟨S6400000x16, .f32⟩ : BufTy).Contents (Elt F) → (⟨S6400000x16, .f32⟩ : BufTy).Contents (Elt F) → (⟨S6400000x16, .f32⟩ : BufTy).Contents (Elt F)),
    binary main_v26 main_v26 main_v27 (mulf : (⟨S6400000x16, .f32⟩ : BufTy).Contents (Elt F) → (⟨S6400000x16, .f32⟩ : BufTy).Contents (Elt F) → (⟨S6400000x16, .f32⟩ : BufTy).Contents (Elt F)),
    nullary main_cst_4 (constant S_ .f32 0xC0E38E39#32),
    unary main_cst_4 main_v28 (broadcastInDim S6400000x16 ![] bcast_S_S6400000x16 : (⟨S_, .f32⟩ : BufTy).Contents (Elt F) → (⟨S6400000x16, .f32⟩ : BufTy).Contents (Elt F)),
    binary main_v28 main_v27 main_v29 (mulf : (⟨S6400000x16, .f32⟩ : BufTy).Contents (Elt F) → (⟨S6400000x16, .f32⟩ : BufTy).Contents (Elt F) → (⟨S6400000x16, .f32⟩ : BufTy).Contents (Elt F)),
    unary main_v29 main_v30 (Host.exp : (⟨S6400000x16, .f32⟩ : BufTy).Contents (Elt F) → (⟨S6400000x16, .f32⟩ : BufTy).Contents (Elt F)),
    unary main_arg1 main_v31 ((extractStridedSlice S1x6400000 ![1, 0] · slices_S2x6400000_S1x6400000_1_0) : (⟨S2x6400000, .i32⟩ : BufTy).Contents (Elt F) → (⟨S1x6400000, .i32⟩ : BufTy).Contents (Elt F)),
    reshape main_v31 main_v32 rfl shapeCasts_S1x6400000_S6400000,
    nullary main_cst_5 (constant S_ .f32 0x00000000#32),
    unary main_cst_5 main_v33 (broadcastInDim S100000x16 ![] bcast_S_S100000x16 : (⟨S_, .f32⟩ : BufTy).Contents (Elt F) → (⟨S100000x16, .f32⟩ : BufTy).Contents (Elt F)),
    unary main_v32 main_v34 (broadcastInDim S6400000x1 ![0] bcast_S6400000_S6400000x1_0 : (⟨S6400000, .i32⟩ : BufTy).Contents (Elt F) → (⟨S6400000x1, .i32⟩ : BufTy).Contents (Elt F)),
    ternary main_v33 main_v34 main_v30 main_v35 ((fun x i u => Host.scatterAdd scatter_S100000x16_S6400000x1_S6400000x16_1_0_0_1 x i u) : (⟨S100000x16, .f32⟩ : BufTy).Contents (Elt F) → (⟨S6400000x1, .i32⟩ : BufTy).Contents (Elt F) → (⟨S6400000x16, .f32⟩ : BufTy).Contents (Elt F) → (⟨S100000x16, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., unary_bufs_sub .., reshape_bufs_sub .., nullary_bufs_sub .., unary_bufs_sub .., unary_bufs_sub .., ternary_bufs_sub ..⟩

/-- On every device, for any float values, from any memory with zero counters: every weakly fair execution of @main
    terminates with the result at the per-atom sum of the host's expansion of the edge lengths, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = Cert.EdgeBasis.atomSum (m ((c.tc : Thread nD τ).loc main_arg1))
              (Cert.EdgeBasis.hostBasis
                (Cert.EdgeBasis.edgeLen (m ((c.tc : Thread nD τ).loc main_arg0)) (m ((c.tc : Thread nD τ).loc main_arg1)))
                (Cert.EdgeBasis.centreRow lit0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HostRun

end
-- ==== Proof.KernelBlocks.lean ====
/-
  What the kernel's output array holds after the run, as one function of the two arrays its body reads.

  The grid has 500 points. At point `t` the body reads block `t` of the column of edge lengths (rows
  `12800·t … 12800·t + 12799`, the one column) and the whole row of sixteen centres, and writes block `t` of the
  output (the same rows, all sixteen columns): entry `(p, q)` of what it writes is `exp ((c · d) · d)` with
  `d = s_q − ℓ_p`, `ℓ_p` the block's length at row `p` and `s_q` the centre at column `q`. A block's row `p` is row
  `12800·t + p` of the array, for the lengths and for the output alike, so what point `t` writes back is block `t`
  of ONE array — the specification's `bodyBasis` of the column and the row as the region finds them. Row `r` of the
  output lies in the block of point `r / 12800`, so the 500 blocks cover the array, and after the run the array is
  that function.
-/
import proofs.«106090_j74706661146715_2_alg».proof.Proof.Gen.KernelIdeal.Frame
import proofs.«106090_j74706661146715_2_alg».proof.Proof.Spec
import Idealize.ShloMosaic.Lib.Pipeline.Value
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.EdgeBasis (bodyEntry bodyBasis)

variable (m : (ℓ : Loc nD τ sig) → Buf (Elt Ideal) ℓ)

/-! ## The body at an entry -/

/-- Entry `(p, q)` of what the body stores, from the two blocks it loads: the centre at column `q` of the one row,
    the length at row `p` of the one column, and `exp ((c · d) · d)` of their difference. The row is copied down the
    12800 rows and the column across the 16 lanes before the subtraction; narrowing the float format changes nothing
    on the extended reals. -/
theorem body_at (x0 : Vec Ideal S12800x1 .f32) (x1 : Vec Ideal S1x16 .f32) (p : Fin 12800) (q : Fin 16) :
    k0_pay1 x0 x1 (ix2 p q) = bodyEntry (x1 (ix2 (0 : Fin 1) q)) (x0 (ix2 p (0 : Fin 1))) := by
  unfold k0_pay1
  show Ideal.exp ((Ideal.ofBits .f32 0xC0E38E39#32
        * (broadcastTo S12800x16 (shapeCast S1x16 x1 _) _ (ix2 p q) - broadcastTo S12800x16 (shapeCast S12800x1 x0 _) _ (ix2 p q)))
      * (broadcastTo S12800x16 (shapeCast S1x16 x1 _) _ (ix2 p q) - broadcastTo S12800x16 (shapeCast S12800x1 x0 _) _ (ix2 p q))) = _
  rw [shapeCast_self, shapeCast_self, broadcastTo_1b_ab_apply, broadcastTo_a1_ab_apply]
  rfl

/-- The body's entry at `j'` of the block is the expansion's entry at `i` of the array, once the block of lengths
    read at `j'`'s row is the column at `i`'s row and the block of centres read at `j'`'s lane is the row at `i`'s lane. -/
theorem block_entry (col : FVec Ideal S6400000x1 .f32) (s : FVec Ideal S1x16 .f32)
    (x0 : Vec Ideal S12800x1 .f32) (x1 : Vec Ideal S1x16 .f32) (j' : S12800x16.Idx) (i : S6400000x16.Idx)
    (h0 : x0 (ix2 (j' 0) (0 : Fin 1)) = col (ix2 (i 0) (0 : Fin 1)))
    (h1 : x1 (ix2 (0 : Fin 1) (j' 1)) = s (ix2 (0 : Fin 1) (i 1))) :
    k0_pay1 x0 x1 j' = bodyBasis col s i := by
  refine (congrArg (k0_pay1 x0 x1) (eq_ix2 j')).trans ?_
  refine (body_at x0 x1 (j' 0) (j' 1)).trans ?_
  rw [h0, h1]
  rfl

/-! ## Which rows a point touches -/

theorem origin : (![0, 0] : Fin 2 → Nat) = fun _ => 0 := funext fun a => by fin_cases a <;> rfl

/-- The printed index maps over the 500 points: the lengths' block and the output's block are both block `t` along
    the rows and the only block along the columns; the centres' block is always the one block. -/
theorem index_facts : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row `p` of block `t` of a column of 6400000 entries is the column's row `r`, for `r = 12800·t + p` spelt with
    the output window's block index (the two windows move together along the rows). -/
theorem lengths_block (A : FVec Ideal S6400000x1 .f32) (t : Fin cfg0.N) (p : Fin 12800) (r : Fin 6400000)
    (hr : r.val = win0_2.index t (0 : Fin 2) * 12800 + 1 * p.val) :
    ((cfg0.win 0).blk t).view.read (Elt Ideal) A (ix2 p (0 : Fin 1) : S12800x1.Idx) = A (ix2 r (0 : Fin 1)) := by
  obtain ⟨e2, e2', e0, e0', e1, e1'⟩ := index_facts t
  show A (((cfg0.win 0).blk t).view.emb (ix2 p (0 : Fin 1) : S12800x1.Idx)) = A (ix2 r (0 : Fin 1))
  refine congrArg A (funext fun a => Fin.ext ?_)
  match a with
  | ⟨0, _⟩ => show win0_0.index t (0 : Fin 2) * 12800 + 1 * p.val = r.val; omega
  | ⟨1, _⟩ => show win0_0.index t (1 : Fin 2) * 1 + 1 * 0 = 0; omega

/-- Lane `q` of the one block of the row of centres is the row's lane `r`, for `r = q` spelt with the output window's
    block index along the lanes (which is always 0). -/
theorem centres_block (B : FVec Ideal S1x16 .f32) (t : Fin cfg0.N) (q : Fin 16) (r : Fin 16)
    (hr : r.val = win0_2.index t (1 : Fin 2) * 16 + 1 * q.val) :
    ((cfg0.win 1).blk t).view.read (Elt Ideal) B (ix2 (0 : Fin 1) q : S1x16.Idx) = B (ix2 (0 : Fin 1) r) := by
  obtain ⟨e2, e2', e0, e0', e1, e1'⟩ := index_facts t
  show B (((cfg0.win 1).blk t).view.emb (ix2 (0 : Fin 1) q : S1x16.Idx)) = B (ix2 (0 : Fin 1) r)
  refine congrArg B (funext fun a => Fin.ext ?_)
  match a with
  | ⟨0, _⟩ => show win0_1.index t (0 : Fin 2) * 1 + 1 * 0 = 0; omega
  | ⟨1, _⟩ => show win0_1.index t (1 : Fin 2) * 16 + 1 * q.val = r.val; omega

/-- WHAT POINT `t` WRITES BACK is block `t` of the expansion of the column of lengths and the row of centres as the
    region finds them. -/
theorem written_at (c : Dev nD) (t : Fin cfg0.N) :
    (dats m 0 c).flushed 2 t
      = ((cfg0.win 2).blk t).view.read (Elt Ideal) (bodyBasis (V m c main_v23) (V m c main_v0)) := by
  show (cfg0.win 2).cut (grid0.coords t) ((dats m 0 c).after 2 t) = _
  rw [after0_2]
  unfold out0_2
  rw [View.canon_unit_zero origin]
  simp only [View.ld_unit_zero (S := S12800x1) origin, View.ld_unit_zero (S := S1x16) origin]
  funext j
  refine block_entry (V m c main_v23) (V m c main_v0) (iblk m c 0 t) (iblk m c 1 t)
    ((win0 2).xinj (grid0.coords t) j) (((cfg0.win 2).blk t).view.emb j) ?_ ?_
  · exact lengths_block (V m c main_v23) t ((win0 2).xinj (grid0.coords t) j 0) (((cfg0.win 2).blk t).view.emb j 0) rfl
  · exact centres_block (V m c main_v0) t ((win0 2).xinj (grid0.coords t) j 1) (((cfg0.win 2).blk t).view.emb j 1) rfl

/-! ## The blocks cover the array -/

/-- An index of the output array is in point `t`'s block iff each coordinate is in the block's range on its axis. -/
theorem mem_block (t : Fin cfg0.N) (i : S6400000x16.Idx) :
    i ∈ ((cfg0.win 2).blk t).view.set ↔ ∀ a : Fin 2, win0_2.index t a * S12800x16.size a ≤ (i a).val
      ∧ (i a).val < win0_2.index t a * S12800x16.size a + S12800x16.size a := by
  show i ∈ ((View.whole main_v24).slice (win0_2.rect t)).set ↔ _
  rw [View.set_slice_whole, Rect.mem_set_unit]
  exact Iff.rfl

/-- Row `r` of the output lies in the block of point `r / 12800`, which is written back: every index is covered. -/
theorem covered (i : S6400000x16.Idx) :
    ∃ t : Fin cfg0.N, (cfg0.win 2).flush t = true ∧ i ∈ ((cfg0.win 2).blk t).view.set := by
  have hi0 : (i 0).val < 6400000 := (i 0).isLt
  have hi1 : (i 1).val < 16 := (i 1).isLt
  have hN : cfg0.N = 500 := N_0
  have hlt : (i 0).val / 12800 < cfg0.N := by rw [hN]; omega
  obtain ⟨e2, e2', -⟩ := index_facts ⟨(i 0).val / 12800, hlt⟩
  refine ⟨⟨(i 0).val / 12800, hlt⟩, flush0_2 _, ?_⟩
  rw [mem_block]
  intro a
  match a with
  | ⟨0, _⟩ =>
    show win0_2.index ⟨(i 0).val / 12800, hlt⟩ (0 : Fin 2) * 12800 ≤ (i 0).val
      ∧ (i 0).val < win0_2.index ⟨(i 0).val / 12800, hlt⟩ (0 : Fin 2) * 12800 + 12800
    rw [e2]
    show (i 0).val / 12800 * 12800 ≤ (i 0).val ∧ (i 0).val < (i 0).val / 12800 * 12800 + 12800
    omega
  | ⟨1, _⟩ =>
    show win0_2.index ⟨(i 0).val / 12800, hlt⟩ (1 : Fin 2) * 16 ≤ (i 1).val
      ∧ (i 1).val < win0_2.index ⟨(i 0).val / 12800, hlt⟩ (1 : Fin 2) * 16 + 16
    rw [e2']
    omega

/-- THE OUTPUT ARRAY after the run is the expansion of the column of lengths and the row of centres as the region
    finds them. -/
theorem final (c : Dev nD) :
    (dats m 0 c).arrAt 2 cfg0.N = bodyBasis (V m c main_v23) (V m c main_v0) :=
  (dats m 0 c).arrAt_eq_of_cover 2 _ (fun t _ => written_at m c t) covered

end Cert.KernelIdeal.Blocks

end
-- ==== Proof.KernelRun.lean ====
/-
  The kernel program's run, read back through the host operations around its one region.

  Before the region thirty host operations leave the edge lengths, reshaped to a column, in the buffer the first
  window stages, and the sixteen centres, as a one-row matrix, in the buffer the second window stages. The region
  leaves the expansion of those two (the blocks module). After the region seven host operations widen the expansion
  back to the wider float format and add its rows, from zero, into the row of each edge's second endpoint. So the
  result is the specification's per-atom sum of the widened expansion of the column of lengths — stated here as the
  run's post, with the argument arrays unchanged.
-/
import proofs.«106090_j74706661146715_2_alg».proof.Proof.KernelBlocks
import Idealize.ShloMosaic.Lib.StableHlo.Run

set_option maxRecDepth 16384

noncomputable section

namespace Cert.KernelIdeal.HostRun

open Cert.KernelIdeal Cert.KernelIdeal.Gen Idealize.ShloMosaic Idealize.ShloMosaic.TcCoe Idealize.SL.Sem Idealize.ShloMosaic.StableHlo
open Cert.EdgeBasis (SEdgeCol castCol narrower edgeLen atomSum centreRow bodyBasis)

variable (m : (ℓ : Loc nD τ sig) → Buf (Elt Ideal) ℓ) (ρ : Dev nD → PrngReg)

/-- The column the first window stages, as the region finds it: the edge lengths of the argument arrays, reshaped. -/
theorem lengths_in (c : Dev nD) :
    (V m c main_v23 : S6400000x1.Idx → EReal)
      = shapeCast SEdgeCol (edgeLen (F := Ideal) (m ((c.tc : Thread nD τ).loc main_arg0)) (m ((c.tc : Thread nD τ).loc main_arg1))) castCol := by
  show StableHlo.after hostOps0 (fun b => m (c, b)) (Proc.devRef .tc main_v23) = _
  after_results_simp <;> rfl

/-- The row the second window stages, as the region finds it: the sixteen centres. -/
theorem centres_in (c : Dev nD) : (V m c main_v0 : S1x16.Idx → EReal) = centreRow (F := Ideal) lit0 := by
  show StableHlo.after hostOps0 (fun b => m (c, b)) (Proc.devRef .tc main_v0) = _
  after_results_simp <;> rfl

/-- The result buffer after the seven host operations that follow the region: the per-atom sum of the widened output
    array of the region, indexed by the second endpoints of the argument `idx`. -/
theorem result_after (c : Dev nD) :
    Pipeline.afterTail₀ cfgs (dats m) 0 (V0 m) [hostOps1] c main_v30
      = atomSum (F := Ideal) (m ((c.tc : Thread nD τ).loc main_arg1)) (extf (F := Ideal) .f32 ((dats m 0 c).arrAt 2 cfg0.N : FVec Ideal S6400000x16 .bf16) narrower : FVec Ideal S6400000x16 .f32) := by
  have e24 : Pipeline.withArrays spec0 c (V0 m c) (fun w => (dats m 0 c).arrAt w cfg0.N) (Proc.devRef .tc main_v24)
      = (dats m 0 c).arrAt 2 cfg0.N := Pipeline.withArrays_arr spec0 launch0.win.arr_inj c _ _ 2
  have e1 : Pipeline.withArrays spec0 c (V0 m c) (fun w => (dats m 0 c).arrAt w cfg0.N) (Proc.devRef .tc main_arg1)
      = m ((c.tc : Thread nD τ).loc main_arg1) :=
    (Pipeline.withArrays_of_ne spec0 c (V0 m c) _ main_arg1 (by exact (by decide : ∀ w, Pipeline.arrRef spec0 w ≠ main_arg1))).trans
      (V_main_arg1 m c)
  unfold Pipeline.afterTail₀
  show StableHlo.after hostOps1 _ (Proc.devRef .tc main_v30) = _
  after_results
  rw [e24, e1]
  rfl

/-- THE KERNEL PROGRAM'S RUN: every weakly fair execution terminates with the result at the per-atom sum of the
    widened expansion of the column of edge lengths over the row of centres, and the argument arrays unchanged. -/
theorem run : θ_run defs (onTc (τ := τ) (main (F := Ideal))) ⟨m, fun _ => 0, ρ⟩ fun r => ∀ c : Dev nD,
      r.2.mem ((c.tc : Thread nD τ).loc main_v30)
          = atomSum (F := Ideal) (m ((c.tc : Thread nD τ).loc main_arg1))
              (extf (F := Ideal) .f32 (bodyBasis
                (shapeCast SEdgeCol (edgeLen (F := Ideal) (m ((c.tc : Thread nD τ).loc main_arg0)) (m ((c.tc : Thread nD τ).loc main_arg1))) castCol)
                (centreRow (F := Ideal) lit0)) narrower : FVec Ideal S6400000x16 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v30 (Pipeline.mem_restRefs_of main_v30 (by decide) (by decide))).trans
        ((result_after m c).trans (by rw [Cert.KernelIdeal.Blocks.final, lengths_in, centres_in])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HostRun

end
-- ==== Proof.lean ====
/-
  The proof of `Cert.Claim`: radial basis descriptors of atoms, a kernel program against its plain reference.

  Both programs compute every edge's length with the same host operations and end with the same sum of each atom's
  incoming edges; between the two, the kernel program expands the lengths on sixteen Gaussians in a kernel over 500
  blocks of 12800 edges, as `exp ((c · d) · d)`, and the reference in host operations, as `exp (c · (d · d))`, with
  `d` the difference of a centre and a length and `c` and the centres the same words in both. On the extended reals
  the two groupings are one number (multiplication is associative, at the infinities too), and narrowing and
  widening the float format change nothing: the two results are equal for every input, finite or not.

  The pieces: Proof/Spec.lean — the shared chains as functions of the arguments, both spellings of the expansion and
  the law joining them; Proof/RefRun.lean — the reference's run; Proof/KernelBlocks.lean — what the kernel's output
  array holds; Proof/KernelRun.lean — the kernel program's run through the host operations around the region. The
  three frame claims are the generated frame runs (the reference's is its run with the result dropped); the kernel's
  idealization rewrote nothing, so what `preserves` asks is `True`.
-/
import proofs.«106090_j74706661146715_2_alg».proof.Defs
import proofs.«106090_j74706661146715_2_alg».proof.Proof.Gen.Kernel
import proofs.«106090_j74706661146715_2_alg».proof.Proof.Gen.Kernel.Frame
import proofs.«106090_j74706661146715_2_alg».proof.Proof.Gen.KernelIdeal
import proofs.«106090_j74706661146715_2_alg».proof.Proof.Gen.KernelIdeal.Frame
import proofs.«106090_j74706661146715_2_alg».proof.Proof.Gen.ReferenceIdeal
import proofs.«106090_j74706661146715_2_alg».proof.Proof.Gen.Pre_finite_inputs
import proofs.«106090_j74706661146715_2_alg».proof.Proof.Spec
import proofs.«106090_j74706661146715_2_alg».proof.Proof.RefRun
import proofs.«106090_j74706661146715_2_alg».proof.Proof.KernelRun
import Idealize.ShloMosaic.Adequacy
import Idealize.ShloMosaic.Init

noncomputable section

namespace Cert.Proof

open Idealize.ShloMosaic Idealize.SL.Sem

/-- The sixteen centres are the same sixteen words in both programs. -/
theorem centres_same : Cert.ReferenceIdeal.lit0 = Cert.KernelIdeal.lit0 := by
  funext i; fin_cases i <;> rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.HostRun.run (F := Ideal) m ρ)

/-- From memories that agree on `R` and `idx` the kernel program ends at the per-atom sum of the widened body
    expansion and the reference at the per-atom sum of the host expansion, of the same edge lengths and the same
    centres: one array, by the specification's law. -/
theorem algebraic : Cert.algebraic_KernelIdeal_ReferenceIdeal := by
  intro m ρ m' ρ' _ hagree
  refine ⟨_, Cert.KernelIdeal.HostRun.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2, Cert.EdgeBasis.widened_bodyBasis, centres_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
